-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S10000x10000 : Shape := ⟨2, ![10000, 10000]⟩
abbrev S10000x128 : Shape := ⟨2, ![10000, 128]⟩
abbrev S128 : Shape := ⟨1, ![128]⟩
abbrev S168x64 : Shape := ⟨2, ![168, 64]⟩
abbrev S10000x64 : Shape := ⟨2, ![10000, 64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128 : S_.BroadcastsInDim S128 (![] : Fin 0 → Fin S128.rank)
  reducesTo_S128_S_d0 : S128.ReducesTo [0] S_
  bcast_S_S168x64 : S_.BroadcastsInDim S168x64 (![] : Fin 0 → Fin S168x64.rank)
  reducesTo_S168x64_S_d0_1 : S168x64.ReducesTo [0, 1] S_
  bcast_S_S10000x64 : S_.BroadcastsInDim S10000x64 (![] : Fin 0 → Fin S10000x64.rank)
  reducesTo_S10000x64_S_d0_1 : S10000x64.ReducesTo [0, 1] S_

variable [Facts]

def fn_part1 {F : FTy → Type} [FloatOps F] (main_arg7 : FVec F S10000x64 .f32) (main_v13 : IVec S_ 1) (main_v16 : IVec S168x64 1) : IVec S_ 1 :=
  let main_c_5 : IVec S_ 1 := constantI S_ 1 1#1
  let main_v17 : IVec S_ 1 := (fun x v => Host.reduce IntOp.andi x v reducesTo_S168x64_S_d0_1 h_S_) main_v16 main_c_5
  let main_v18 : IVec S_ 1 := andi main_v13 main_v17
  let main_v19 : FVec F S10000x64 .f32 := Host.absf main_arg7
  let main_cst_6 : FVec F S_ .f32 := constant S_ .f32 0x7F800000#32
  let main_v20 : FVec F S10000x64 .f32 := broadcastInDim S10000x64 ![] bcast_S_S10000x64 main_cst_6
  let main_v21 : IVec S10000x64 1 := cmpf .olt main_v19 main_v20
  let main_c_7 : IVec S_ 1 := constantI S_ 1 1#1
  let main_v22 : IVec S_ 1 := (fun x v => Host.reduce IntOp.andi x v reducesTo_S10000x64_S_d0_1 h_S_) main_v21 main_c_7
  let main_v23 : IVec S_ 1 := andi main_v18 main_v22
  main_v23

def fn {F : FTy → Type} [FloatOps F] (main_arg0 : IVec S64x128 32) (main_arg1 : IVec S64x128 32) (main_arg2 : IVec S64x128 32) (main_arg3 : FVec F S10000x10000 .f32) (main_arg4 : FVec F S10000x128 .f32) (main_arg5 : FVec F S128 .f32) (main_arg6 : FVec F S168x64 .f32) (main_arg7 : FVec F S10000x64 .f32) : IVec S_ 1 :=
  let main_v0 : FVec F S10000x10000 .f32 := Host.absf main_arg3
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg4
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S168x64 .f32 := Host.absf main_arg6
  let main_cst_4 : FVec F S_ .f32 := constant S_ .f32 0x7F800000#32
  let main_v15 : FVec F S168x64 .f32 := broadcastInDim S168x64 ![] bcast_S_S168x64 main_cst_4
  let main_v16 : IVec S168x64 1 := cmpf .olt main_v14 main_v15
  fn_part1 (F := F) main_arg7 main_v13 main_v16
-- ==== Kernel.lean ====
abbrev S64x128 : Shape := ⟨2, ![64, 128]⟩
abbrev S10000x10000 : Shape := ⟨2, ![10000, 10000]⟩
abbrev S10000x128 : Shape := ⟨2, ![10000, 128]⟩
abbrev S128 : Shape := ⟨1, ![128]⟩
abbrev S168x64 : Shape := ⟨2, ![168, 64]⟩
abbrev S10000x64 : Shape := ⟨2, ![10000, 64]⟩
abbrev S64x127 : Shape := ⟨2, ![64, 127]⟩
abbrev S_ : Shape := ⟨0, ![]⟩
abbrev S64x1 : Shape := ⟨2, ![64, 1]⟩
abbrev S1x128 : Shape := ⟨2, ![1, 128]⟩
abbrev S400x10000 : Shape := ⟨2, ![400, 10000]⟩
abbrev S400x128 : Shape := ⟨2, ![400, 128]⟩
abbrev S64x128x1 : Shape := ⟨3, ![64, 128, 1]⟩
abbrev S64x128x128 : Shape := ⟨3, ![64, 128, 128]⟩
abbrev S64x128x64 : Shape := ⟨3, ![64, 128, 64]⟩
abbrev S64x128x256 : Shape := ⟨3, ![64, 128, 256]⟩

abbrev nBuf : Space → Nat
  | .hbm => 57
  | .vmem => 6
  | .smem => 0
  | _ => 0

abbrev bufTy : (tb : Table) → Fin (tcTables nBuf tb) → BufTy
  | .hbm, ⟨0, _⟩ => ⟨S64x128, .i32⟩
  | .hbm, ⟨1, _⟩ => ⟨S64x128, .i32⟩
  | .hbm, ⟨2, _⟩ => ⟨S64x128, .i32⟩
  | .hbm, ⟨3, _⟩ => ⟨S10000x10000, .f32⟩
  | .hbm, ⟨4, _⟩ => ⟨S10000x128, .f32⟩
  | .hbm, ⟨5, _⟩ => ⟨S128, .f32⟩
  | .hbm, ⟨6, _⟩ => ⟨S168x64, .f32⟩
  | .hbm, ⟨7, _⟩ => ⟨S10000x64, .f32⟩
  | .hbm, ⟨8, _⟩ => ⟨S64x127, .i32⟩
  | .hbm, ⟨9, _⟩ => ⟨S_, .i32⟩
  | .hbm, ⟨10, _⟩ => ⟨S64x1, .i32⟩
  | .hbm, ⟨11, _⟩ => ⟨S64x128, .i32⟩
  | .hbm, ⟨12, _⟩ => ⟨S1x128, .f32⟩
  | .hbm, ⟨13, _⟩ => ⟨S10000x128, .f32⟩
  | .hbm, ⟨14, _⟩ => ⟨S_, .i32⟩
  | .hbm, ⟨15, _⟩ => ⟨S64x128, .i32⟩
  | .hbm, ⟨16, _⟩ => ⟨S64x128, .i1⟩
  | .hbm, ⟨17, _⟩ => ⟨S_, .i32⟩
  | .hbm, ⟨18, _⟩ => ⟨S64x128, .i32⟩
  | .hbm, ⟨19, _⟩ => ⟨S64x128, .i32⟩
  | .hbm, ⟨20, _⟩ => ⟨S64x128, .i32⟩
  | .hbm, ⟨21, _⟩ => ⟨S64x128x1, .i32⟩
  | .hbm, ⟨22, _⟩ => ⟨S64x128x128, .f32⟩
  | .hbm, ⟨23, _⟩ => ⟨S_, .i32⟩
  | .hbm, ⟨24, _⟩ => ⟨S64x128, .i32⟩
  | .hbm, ⟨25, _⟩ => ⟨S64x128, .i1⟩
  | .hbm, ⟨26, _⟩ => ⟨S_, .i32⟩
  | .hbm, ⟨27, _⟩ => ⟨S64x128, .i32⟩
  | .hbm, ⟨28, _⟩ => ⟨S64x128, .i32⟩
  | .hbm, ⟨29, _⟩ => ⟨S64x128, .i32⟩
  | .hbm, ⟨30, _⟩ => ⟨S64x128x1, .i32⟩
  | .hbm, ⟨31, _⟩ => ⟨S64x128x64, .f32⟩
  | .hbm, ⟨32, _⟩ => ⟨S_, .f32⟩
  | .hbm, ⟨33, _⟩ => ⟨S64x128x64, .f32⟩
  | .hbm, ⟨34, _⟩ => ⟨S64x128x64, .f32⟩
  | .hbm, ⟨35, _⟩ => ⟨S_, .i32⟩
  | .hbm, ⟨36, _⟩ => ⟨S64x128, .i32⟩
  | .hbm, ⟨37, _⟩ => ⟨S64x128, .i1⟩
  | .hbm, ⟨38, _⟩ => ⟨S_, .i32⟩
  | .hbm, ⟨39, _⟩ => ⟨S64x128, .i32⟩
  | .hbm, ⟨40, _⟩ => ⟨S64x128, .i32⟩
  | .hbm, ⟨41, _⟩ => ⟨S64x128, .i32⟩
  | .hbm, ⟨42, _⟩ => ⟨S64x128x1, .i32⟩
  | .hbm, ⟨43, _⟩ => ⟨S64x128x64, .f32⟩
  | .hbm, ⟨44, _⟩ => ⟨S_, .i32⟩
  | .hbm, ⟨45, _⟩ => ⟨S64x128, .i32⟩
  | .hbm, ⟨46, _⟩ => ⟨S64x128, .i1⟩
  | .hbm, ⟨47, _⟩ => ⟨S_, .i32⟩
  | .hbm, ⟨48, _⟩ => ⟨S64x128, .i32⟩
  | .hbm, ⟨49, _⟩ => ⟨S64x128, .i32⟩
  | .hbm, ⟨50, _⟩ => ⟨S64x128, .i32⟩
  | .hbm, ⟨51, _⟩ => ⟨S64x128x1, .i32⟩
  | .hbm, ⟨52, _⟩ => ⟨S64x128x64, .f32⟩
  | .hbm, ⟨53, _⟩ => ⟨S_, .f32⟩
  | .hbm, ⟨54, _⟩ => ⟨S64x128x64, .f32⟩
  | .hbm, ⟨55, _⟩ => ⟨S64x128x64, .f32⟩
  | .hbm, ⟨56, _⟩ => ⟨S64x128x256, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S1x128, .f32⟩
  | .local _ .vmem, ⟨4, _⟩ => ⟨S400x128, .f32⟩
  | .local _ .vmem, ⟨5, _⟩ => ⟨S400x128, .f32⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S64x128_S64x127_0_1 : S64x128.Slices ![0, 1] S64x127
  bcast_S_S64x1 : S_.BroadcastsInDim S64x1 (![] : Fin 0 → Fin S64x1.rank)
  concatenates_S64x127_S64x1_S64x128_d1 : Shape.Concatenates [S64x127, S64x1] S64x128 1
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S_S64x128x64 : S_.BroadcastsInDim S64x128x64 (![] : Fin 0 → Fin S64x128x64.rank)
  concatenates_S64x128x128_S64x128x64_S64x128x64_S64x128x256_d2 : Shape.Concatenates [S64x128x128, S64x128x64, S64x128x64] S64x128x256 2
  dot_S400x10000_S10000x128_S400x128_1_0_0_1_n_n_wf : DotDims.WF S400x10000 S10000x128 S400x128 [1] [0] [0] [1] [] []
  gather_S10000x128_S64x128x1_S64x128x128_2_0_n_n_0_2_1128_wf : GatherDims.WF S10000x128 S64x128x1 S64x128x128 [2] [0] [] [0] [] 2 ![1, 128]
  gather_S168x64_S64x128x1_S64x128x64_2_0_n_n_0_2_164_wf : GatherDims.WF S168x64 S64x128x1 S64x128x64 [2] [0] [] [0] [] 2 ![1, 64]
  gather_S10000x64_S64x128x1_S64x128x64_2_0_n_n_0_2_164_wf : GatherDims.WF S10000x64 S64x128x1 S64x128x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def gather_S10000x128_S64x128x1_S64x128x128_2_0_n_n_0_2_1128 : GatherDims S10000x128 S64x128x1 S64x128x128 where
  offsetDims := [2]
  collapsedSliceDims := [0]
  operandBatchingDims := []
  startIndicesBatchingDims := []
  startIndexMap := [0]
  indexVectorDim := 2
  sliceSizes := ![1, 128]
  wf := gather_S10000x128_S64x128x1_S64x128x128_2_0_n_n_0_2_1128_wf
def gather_S168x64_S64x128x1_S64x128x64_2_0_n_n_0_2_164 : GatherDims S168x64 S64x128x1 S64x128x64 where
  offsetDims := [2]
  collapsedSliceDims := [0]
  operandBatchingDims := []
  startIndicesBatchingDims := []
  startIndexMap := [0]
  indexVectorDim := 2
  sliceSizes := ![1, 64]
  wf := gather_S168x64_S64x128x1_S64x128x64_2_0_n_n_0_2_164_wf
def gather_S10000x64_S64x128x1_S64x128x64_2_0_n_n_0_2_164 : GatherDims S10000x64 S64x128x1 S64x128x64 where
  offsetDims := [2]
  collapsedSliceDims := [0]
  operandBatchingDims := []
  startIndicesBatchingDims := []
  startIndexMap := [0]
  indexVectorDim := 2
  sliceSizes := ![1, 64]
  wf := gather_S10000x64_S64x128x1_S64x128x64_2_0_n_n_0_2_164_wf

abbrev win0_0 : Pipeline.Window sig grid0 :=
  Pipeline.Window.ofSpec (Memref.whole main_arg3) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x128 : Shape := ⟨2, ![64, 128]⟩
abbrev S10000x10000 : Shape := ⟨2, ![10000, 10000]⟩
abbrev S10000x128 : Shape := ⟨2, ![10000, 128]⟩
abbrev S128 : Shape := ⟨1, ![128]⟩
abbrev S168x64 : Shape := ⟨2, ![168, 64]⟩
abbrev S10000x64 : Shape := ⟨2, ![10000, 64]⟩
abbrev S64x127 : Shape := ⟨2, ![64, 127]⟩
abbrev S_ : Shape := ⟨0, ![]⟩
abbrev S64x1 : Shape := ⟨2, ![64, 1]⟩
abbrev S64x128x1 : Shape := ⟨3, ![64, 128, 1]⟩
abbrev S64x128x10000 : Shape := ⟨3, ![64, 128, 10000]⟩
abbrev S64x128x128 : Shape := ⟨3, ![64, 128, 128]⟩
abbrev S1x1x128 : Shape := ⟨3, ![1, 1, 128]⟩
abbrev S64x128x64 : Shape := ⟨3, ![64, 128, 64]⟩
abbrev S64x128x256 : Shape := ⟨3, ![64, 128, 256]⟩

abbrev nBuf : Space → Nat
  | .hbm => 60
  | .vmem => 0
  | .smem => 0
  | _ => 0

abbrev bufTy : (tb : Table) → Fin (tcTables nBuf tb) → BufTy
  | .hbm, ⟨0, _⟩ => ⟨S64x128, .i32⟩
  | .hbm, ⟨1, _⟩ => ⟨S64x128, .i32⟩
  | .hbm, ⟨2, _⟩ => ⟨S64x128, .i32⟩
  | .hbm, ⟨3, _⟩ => ⟨S10000x10000, .f32⟩
  | .hbm, ⟨4, _⟩ => ⟨S10000x128, .f32⟩
  | .hbm, ⟨5, _⟩ => ⟨S128, .f32⟩
  | .hbm, ⟨6, _⟩ => ⟨S168x64, .f32⟩
  | .hbm, ⟨7, _⟩ => ⟨S10000x64, .f32⟩
  | .hbm, ⟨8, _⟩ => ⟨S64x127, .i32⟩
  | .hbm, ⟨9, _⟩ => ⟨S_, .i32⟩
  | .hbm, ⟨10, _⟩ => ⟨S64x1, .i32⟩
  | .hbm, ⟨11, _⟩ => ⟨S64x128, .i32⟩
  | .hbm, ⟨12, _⟩ => ⟨S_, .i32⟩
  | .hbm, ⟨13, _⟩ => ⟨S64x128, .i32⟩
  | .hbm, ⟨14, _⟩ => ⟨S64x128, .i1⟩
  | .hbm, ⟨15, _⟩ => ⟨S_, .i32⟩
  | .hbm, ⟨16, _⟩ => ⟨S64x128, .i32⟩
  | .hbm, ⟨17, _⟩ => ⟨S64x128, .i32⟩
  | .hbm, ⟨18, _⟩ => ⟨S64x128, .i32⟩
  | .hbm, ⟨19, _⟩ => ⟨S64x128x1, .i32⟩
  | .hbm, ⟨20, _⟩ => ⟨S64x128x10000, .f32⟩
  | .hbm, ⟨21, _⟩ => ⟨S64x128x128, .f32⟩
  | .hbm, ⟨22, _⟩ => ⟨S1x1x128, .f32⟩
  | .hbm, ⟨23, _⟩ => ⟨S64x128x128, .f32⟩
  | .hbm, ⟨24, _⟩ => ⟨S64x128x128, .f32⟩
  | .hbm, ⟨25, _⟩ => ⟨S_, .f32⟩
  | .hbm, ⟨26, _⟩ => ⟨S64x128x128, .f32⟩
  | .hbm, ⟨27, _⟩ => ⟨S64x128x128, .f32⟩
  | .hbm, ⟨28, _⟩ => ⟨S_, .i32⟩
  | .hbm, ⟨29, _⟩ => ⟨S64x128, .i32⟩
  | .hbm, ⟨30, _⟩ => ⟨S64x128, .i1⟩
  | .hbm, ⟨31, _⟩ => ⟨S_, .i32⟩
  | .hbm, ⟨32, _⟩ => ⟨S64x128, .i32⟩
  | .hbm, ⟨33, _⟩ => ⟨S64x128, .i32⟩
  | .hbm, ⟨34, _⟩ => ⟨S64x128, .i32⟩
  | .hbm, ⟨35, _⟩ => ⟨S64x128x1, .i32⟩
  | .hbm, ⟨36, _⟩ => ⟨S64x128x64, .f32⟩
  | .hbm, ⟨37, _⟩ => ⟨S_, .i32⟩
  | .hbm, ⟨38, _⟩ => ⟨S64x128, .i32⟩
  | .hbm, ⟨39, _⟩ => ⟨S64x128, .i1⟩
  | .hbm, ⟨40, _⟩ => ⟨S_, .i32⟩
  | .hbm, ⟨41, _⟩ => ⟨S64x128, .i32⟩
  | .hbm, ⟨42, _⟩ => ⟨S64x128, .i32⟩
  | .hbm, ⟨43, _⟩ => ⟨S64x128, .i32⟩
  | .hbm, ⟨44, _⟩ => ⟨S64x128x1, .i32⟩
  | .hbm, ⟨45, _⟩ => ⟨S64x128x64, .f32⟩
  | .hbm, ⟨46, _⟩ => ⟨S_, .i32⟩
  | .hbm, ⟨47, _⟩ => ⟨S64x128, .i32⟩
  | .hbm, ⟨48, _⟩ => ⟨S64x128, .i1⟩
  | .hbm, ⟨49, _⟩ => ⟨S_, .i32⟩
  | .hbm, ⟨50, _⟩ => ⟨S64x128, .i32⟩
  | .hbm, ⟨51, _⟩ => ⟨S64x128, .i32⟩
  | .hbm, ⟨52, _⟩ => ⟨S64x128, .i32⟩
  | .hbm, ⟨53, _⟩ => ⟨S64x128x1, .i32⟩
  | .hbm, ⟨54, _⟩ => ⟨S64x128x64, .f32⟩
  | .hbm, ⟨55, _⟩ => ⟨S64x128x256, .f32⟩
  | .hbm, ⟨56, _⟩ => ⟨S_, .f32⟩
  | .hbm, ⟨57, _⟩ => ⟨S_, .f32⟩
  | .hbm, ⟨58, _⟩ => ⟨S64x128x256, .f32⟩
  | .hbm, ⟨59, _⟩ => ⟨S64x128x256, .f32⟩
  | _, _ => ⟨S64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  slices_S64x128_S64x127_0_1 : S64x128.Slices ![0, 1] S64x127
  bcast_S_S64x1 : S_.BroadcastsInDim S64x1 (![] : Fin 0 → Fin S64x1.rank)
  concatenates_S64x127_S64x1_S64x128_d1 : Shape.Concatenates [S64x127, S64x1] S64x128 1
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S128_S1x1x128_2 : S128.BroadcastsInDim S1x1x128 (![2] : Fin 1 → Fin S1x1x128.rank)
  bcast_S1x1x128_S64x128x128_0_1_2 : S1x1x128.BroadcastsInDim S64x128x128 (![0, 1, 2] : Fin 3 → Fin S64x128x128.rank)
  bcast_S_S64x128x128 : S_.BroadcastsInDim S64x128x128 (![] : Fin 0 → Fin S64x128x128.rank)
  concatenates_S64x128x128_S64x128x64_S64x128x64_S64x128x256_d2 : Shape.Concatenates [S64x128x128, S64x128x64, S64x128x64] S64x128x256 2
  bcast_S_S64x128x256 : S_.BroadcastsInDim S64x128x256 (![] : Fin 0 → Fin S64x128x256.rank)
  gather_S10000x10000_S64x128x1_S64x128x10000_2_0_n_n_0_2_110000_wf : GatherDims.WF S10000x10000 S64x128x1 S64x128x10000 [2] [0] [] [0] [] 2 ![1, 10000]
  dot_S64x128x10000_S10000x128_S64x128x128_2_0_01_1_n_n_wf : DotDims.WF S64x128x10000 S10000x128 S64x128x128 [2] [0] [0, 1] [1] [] []
  gather_S168x64_S64x128x1_S64x128x64_2_0_n_n_0_2_164_wf : GatherDims.WF S168x64 S64x128x1 S64x128x64 [2] [0] [] [0] [] 2 ![1, 64]
  gather_S10000x64_S64x128x1_S64x128x64_2_0_n_n_0_2_164_wf : GatherDims.WF S10000x64 S64x128x1 S64x128x64 [2] [0] [] [0] [] 2 ![1, 64]

variable [Facts₀]

def gather_S10000x10000_S64x128x1_S64x128x10000_2_0_n_n_0_2_110000 : GatherDims S10000x10000 S64x128x1 S64x128x10000 where
  offsetDims := [2]
  collapsedSliceDims := [0]
  operandBatchingDims := []
  startIndicesBatchingDims := []
  startIndexMap := [0]
  indexVectorDim := 2
  sliceSizes := ![1, 10000]
  wf := gather_S10000x10000_S64x128x1_S64x128x10000_2_0_n_n_0_2_110000_wf
def dot_S64x128x10000_S10000x128_S64x128x128_2_0_01_1_n_n : DotDims S64x128x10000 S10000x128 S64x128x128 where
  lhsContracting := [2]
  rhsContracting := [0]
  lhsNonContracting := [0, 1]
  rhsNonContracting := [1]
  lhsBatch := []
  rhsBatch := []
  wf := dot_S64x128x10000_S10000x128_S64x128x128_2_0_01_1_n_n_wf
def gather_S168x64_S64x128x1_S64x128x64_2_0_n_n_0_2_164 : GatherDims S168x64 S64x128x1 S64x128x64 where
  offsetDims := [2]
  collapsedSliceDims := [0]
  operandBatchingDims := []
  startIndicesBatchingDims := []
  startIndexMap := [0]
  indexVectorDim := 2
  sliceSizes := ![1, 64]
  wf := gather_S168x64_S64x128x1_S64x128x64_2_0_n_n_0_2_164_wf
def gather_S10000x64_S64x128x1_S64x128x64_2_0_n_n_0_2_164 : GatherDims S10000x64 S64x128x1 S64x128x64 where
  offsetDims := [2]
  collapsedSliceDims := [0]
  operandBatchingDims := []
  startIndicesBatchingDims := []
  startIndexMap := [0]
  indexVectorDim := 2
  sliceSizes := ![1, 64]
  wf := gather_S10000x64_S64x128x1_S64x128x64_2_0_n_n_0_2_164_wf

class Facts : Prop extends Facts₀ where

variable [Facts]
-- ==== Proof.KernelFrame.lean ====
/-
  The frame of `Kernel`: @main is five host operations (the shifted start-time indices, the bias as a row), one
  region over a grid of 25 points, and 43 host operations (index normalisation, three row gathers, two scalings, one
  concatenation). At each point the body reads a 400-row block of the adjacency matrix, the whole weight matrix and
  the bias row, and stores one 400 × 128 block: relu(block · W + b) · 16. The stores cover the output block, no
  input buffer is written, and no host operation writes an argument, so the program runs to its end with its
  arguments unchanged; the result array of the region is the library's reassembly of the blocks written back.
  Stated at any float instance `F`.
-/
import proofs.«136222_j66271345377352_2_alg».proof.Proof.Gen.Kernel.Launch
import proofs.«136222_j66271345377352_2_alg».proof.Proof.Gen.Kernel.Skeleton
import proofs.«136222_j66271345377352_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: after the five host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is none of the four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the frame
    claim's post: the adjacency and weight matrices are staged inputs (their arrays end as they began), the other six
    arguments are written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body's accesses -/

abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S1x128 := Rect.unit (s := S1x128) ![0, 0] S1x128.size inb_S1x128_S1x128_0_0
abbrev r0_3 : Rect S400x128 := Rect.unit (s := S400x128) ![0, 0] S400x128.size inb_S400x128_S400x128_0_0

/-! ## What the body leaves in the output window's buffer -/

/-- The output buffer after the body, from the three input blocks: its one store, of the whole block. -/
def out0_3 (x0 : Vec F S400x10000 .f32) (x1 : Vec F S10000x128 .f32) (x2 : Vec F S1x128 .f32) : Vec F S400x128 .f32 :=
  View.canon [⟨r0_3, k0_pay1 (View.ld x0 r0_0) (View.ld x1 r0_1) (View.ld x2 r0_2)⟩]

/-- The store's rectangle is the whole block, so it covers it. -/
theorem cover0_3 (p0 : Vec F S400x128 .f32) (y : S400x128.Idx) :
    ∃ pc ∈ ([⟨r0_3, p0⟩] : List (View.Piece (Elt F) S400x128 .f32)), y ∈ pc.1.set :=
  View.cover_of_tiled [⟨r0_3, p0⟩] S400x128.size (by rfl) y

/-! ## The body's triple -/

set_option maxHeartbeats 1000000 in
/-- The body on whole staging memrefs — the inputs' at read contents, the output's at anything — runs to the
    continuation holding the inputs' as they were and the output's at `out0_3` of the inputs'. -/
theorem sound_kernel (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S1x128 .f32) (harg3 : arg3.IsWhole) (arg4 : Memref sig .tc .vmem S400x128 .f32) (harg4 : arg4.IsWhole)
    (x0 : Vec F S400x10000 .f32) (x1 : Vec F S10000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__aw_kernel i arg1 harg1 arg2 harg2 arg3 harg3 arg4 harg4) K := by
  simp only [cc0__aw_kernel_eq_skeleton]; unfold cc0__aw_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t`
    each input's buffer at its block and the output's at `out0_3` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at the library's reassembly of the blocks written back and every other unscoped
    buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)) :=
  frame_of m ρ (dats m) (A_eq m) (run_main m ρ)

end Cert.Kernel.Hand

end
-- ==== Proof.KernelIdealFrame.lean ====
/-
  The frame of `KernelIdeal`: @main is five host operations (the shifted start-time indices, the bias as a row), one
  region over a grid of 25 points, and 43 host operations (index normalisation, three row gathers, two scalings, one
  concatenation). At each point the body reads a 400-row block of the adjacency matrix, the whole weight matrix and
  the bias row, and stores one 400 × 128 block: relu(block · W + b) · 16. The stores cover the output block, no
  input buffer is written, and no host operation writes an argument, so the program runs to its end with its
  arguments unchanged; the result array of the region is the library's reassembly of the blocks written back.
  Stated at any float instance `F`.
-/
import proofs.«136222_j66271345377352_2_alg».proof.Proof.Gen.KernelIdeal.Launch
import proofs.«136222_j66271345377352_2_alg».proof.Proof.Gen.KernelIdeal.Skeleton
import proofs.«136222_j66271345377352_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- A core's buffer contents when the region is entered: after the five host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is none of the four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the frame
    claim's post: the adjacency and weight matrices are staged inputs (their arrays end as they began), the other six
    arguments are written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body's accesses -/

abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S1x128 := Rect.unit (s := S1x128) ![0, 0] S1x128.size inb_S1x128_S1x128_0_0
abbrev r0_3 : Rect S400x128 := Rect.unit (s := S400x128) ![0, 0] S400x128.size inb_S400x128_S400x128_0_0

/-! ## What the body leaves in the output window's buffer -/

/-- The output buffer after the body, from the three input blocks: its one store, of the whole block. -/
def out0_3 (x0 : Vec F S400x10000 .f32) (x1 : Vec F S10000x128 .f32) (x2 : Vec F S1x128 .f32) : Vec F S400x128 .f32 :=
  View.canon [⟨r0_3, k0_pay1 (View.ld x0 r0_0) (View.ld x1 r0_1) (View.ld x2 r0_2)⟩]

/-- The store's rectangle is the whole block, so it covers it. -/
theorem cover0_3 (p0 : Vec F S400x128 .f32) (y : S400x128.Idx) :
    ∃ pc ∈ ([⟨r0_3, p0⟩] : List (View.Piece (Elt F) S400x128 .f32)), y ∈ pc.1.set :=
  View.cover_of_tiled [⟨r0_3, p0⟩] S400x128.size (by rfl) y

/-! ## The body's triple -/

set_option maxHeartbeats 1000000 in
/-- The body on whole staging memrefs — the inputs' at read contents, the output's at anything — runs to the
    continuation holding the inputs' as they were and the output's at `out0_3` of the inputs'. -/
theorem sound_kernel (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S1x128 .f32) (harg3 : arg3.IsWhole) (arg4 : Memref sig .tc .vmem S400x128 .f32) (harg4 : arg4.IsWhole)
    (x0 : Vec F S400x10000 .f32) (x1 : Vec F S10000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__aw_kernel i arg1 harg1 arg2 harg2 arg3 harg3 arg4 harg4) K := by
  simp only [cc0__aw_kernel_eq_skeleton]; unfold cc0__aw_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t`
    each input's buffer at its block and the output's at `out0_3` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at the library's reassembly of the blocks written back and every other unscoped
    buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)) :=
  frame_of m ρ (dats m) (A_eq m) (run_main m ρ)

end Cert.KernelIdeal.Hand

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.KernelLayer.lean ====
/-
  What the region leaves in its result array, at the extended reals. Each grid point `t` reads rows
  `400 t … 400 t + 399` of the adjacency matrix `A`, the whole weight matrix `W` and the bias row `b`, and writes
  back rows `400 t … 400 t + 399` of the result: entry `(r, d)` is `max (Σ_k A(r, k) · W(k, d) + b(0, d)) 0 · 16`.
  The 25 blocks tile the 10000 rows, so the array ends at that function of the three operands, entry by entry.
-/
import proofs.«136222_j66271345377352_2_alg».proof.Proof.KernelIdealFrame
import proofs.«136222_j66271345377352_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand
open scoped BigOperators

/-! ## The layer, entry by entry -/

/-- Entry `(r, d)` of the scaled dense layer: `max (Σ_k A(r, k) · W(k, d) + b(0, d)) 0 · 16`, the two literals as
    the words the programs spell. -/
def layerAt (A : FVec Ideal S10000x10000 .f32) (W : FVec Ideal S10000x128 .f32) (b : FVec Ideal S1x128 .f32)
    (r : Fin 10000) (d : Fin 128) : EReal :=
  max ((∑ k : Fin 10000, A (ix2 r k) * W (ix2 k d)) + b (ix2 (0 : Fin 1) d)) (Ideal.ofBits .f32 0x00000000#32)
    * Ideal.ofBits .f32 0x41800000#32

/-- The layer as a `[10000, 128]` array. -/
def layer (A : FVec Ideal S10000x10000 .f32) (W : FVec Ideal S10000x128 .f32) (b : FVec Ideal S1x128 .f32) :
    FVec Ideal S10000x128 .f32 :=
  fun j => layerAt A W b ⟨(j 0).val, idx2_lt0 j⟩ ⟨(j 1).val, idx2_lt1 j⟩

theorem layer_ix2 (A : FVec Ideal S10000x10000 .f32) (W : FVec Ideal S10000x128 .f32) (b : FVec Ideal S1x128 .f32)
    (r : Fin 10000) (d : Fin 128) : layer A W b (ix2 r d) = layerAt A W b r d := rfl

/-! ## The body's payload at an entry -/

theorem dl0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem dl1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem dr0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem dr1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The value the body stores, at entry `(p, q)` of the block: the product's textbook sum over the 10000 columns of
    the block's row `p`, plus the bias row at `q`, clamped below at zero, times sixteen. -/
theorem pay_apply (v0 : Vec Ideal S400x10000 .f32) (v1 : Vec Ideal S10000x128 .f32) (v3 : Vec Ideal S1x128 .f32)
    (p : Fin 400) (q : Fin 128) :
    k0_pay1 (F := Ideal) v0 v1 v3 (ix2 p q)
      = max ((∑ k : Fin 10000, v0 (ix2 p k) * v1 (ix2 k q)) + v3 (ix2 (0 : Fin 1) q)) (Ideal.ofBits .f32 0x00000000#32)
        * Ideal.ofBits .f32 0x41800000#32 := by
  unfold k0_pay1
  rw [mulf_apply, maximumf_apply, addf_apply, broadcast_apply, broadcast_apply,
    Cert.LibPlainMatmul.matmul_zero_ix2 dot_S400x10000_S10000x128_S400x128_1_0_0_1_n_n (some .fp32) rfl rfl dl0 dl1 dr0 dr1,
    broadcastTo_1b_ab_apply, shapeCast_self]
  rfl

/-! ## From the blocks to the array -/

variable (m : (ℓ : Loc nD τ sig) → Buf (Elt Ideal) ℓ)

theorem hz : (![0, 0] : Fin 2 → Nat) = fun _ => 0 := funext fun a => by fin_cases a <;> rfl

/-- The printed index maps over the grid: the adjacency block and the result block are block `t` of their row axes,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `400 t + p` of the array. -/
abbrev rowAt (t : Fin cfg0.N) (p : Fin 400) : Fin 10000 :=
  ⟨t.val * 400 + p.val, by have h1 : t.val < 25 := lt_of_lt_of_eq t.isLt N_0; have h2 := p.isLt; omega⟩

/-- WHAT POINT `t` WRITES BACK is block `t` of the layer of the arrays as the region finds them. -/
theorem flushed_eq (c : Dev nD) (t : Fin cfg0.N) :
    (dats m 0 c).flushed 3 t
      = ((cfg0.win 3).blk t).view.read (Elt Ideal) (layer (V m c main_arg3) (V m c main_arg4) (V m c main_v3)) := by
  show (cfg0.win 3).cut (grid0.coords t) ((dats m 0 c).after 3 t) = _
  rw [after0_3]
  unfold out0_3
  rw [View.canon_unit_zero hz]
  simp only [View.ld_unit_zero (S := S400x10000) hz, View.ld_unit_zero (S := S10000x128) hz, View.ld_unit_zero (S := S1x128) hz]
  obtain ⟨e0, e1, e2, e3, e4, e5, e6, e7⟩ := idx_facts t
  funext j
  obtain ⟨p, q, rfl⟩ : ∃ (p : Fin 400) (q : Fin 128), j = ix2 p q := ⟨j 0, j 1, eq_ix2 j⟩
  show k0_pay1 (F := Ideal) (iblk m c 0 t) (iblk m c 1 t) (iblk m c 2 t) (ix2 p q)
    = layer (V m c main_arg3) (V m c main_arg4) (V m c main_v3) (((cfg0.win 3).blk t).view.emb (ix2 p q))
  refine (pay_apply _ _ _ p q).trans ?_
  have hemb : ((cfg0.win 3).blk t).view.emb (ix2 p q) = ix2 (rowAt t p) q := by
    funext a; apply Fin.ext
    match a with
    | ⟨0, _⟩ => show win0_3.index t (0 : Fin 2) * 400 + 1 * p.val = t.val * 400 + p.val; omega
    | ⟨1, _⟩ => show win0_3.index t (1 : Fin 2) * 128 + 1 * q.val = q.val; omega
  have hA : ∀ k : Fin 10000, iblk m c 0 t (ix2 p k) = V m c main_arg3 (ix2 (rowAt t p) k) := fun k => by
    show V m c main_arg3 (((cfg0.win 0).blk t).view.emb (ix2 p k)) = _
    refine congrArg _ (funext fun a => Fin.ext ?_)
    match a with
    | ⟨0, _⟩ => show win0_0.index t (0 : Fin 2) * 400 + 1 * p.val = t.val * 400 + p.val; omega
    | ⟨1, _⟩ => show win0_0.index t (1 : Fin 2) * 10000 + 1 * k.val = k.val; omega
  have hW : ∀ k : Fin 10000, iblk m c 1 t (ix2 k q) = V m c main_arg4 (ix2 k q) := fun k => by
    show V m c main_arg4 (((cfg0.win 1).blk t).view.emb (ix2 k q)) = _
    refine congrArg _ (funext fun a => Fin.ext ?_)
    match a with
    | ⟨0, _⟩ => show win0_1.index t (0 : Fin 2) * 10000 + 1 * k.val = k.val; omega
    | ⟨1, _⟩ => show win0_1.index t (1 : Fin 2) * 128 + 1 * q.val = q.val; omega
  have hb : iblk m c 2 t (ix2 (0 : Fin 1) q) = V m c main_v3 (ix2 (0 : Fin 1) q) := by
    show V m c main_v3 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  rw [hemb, layer_ix2]
  unfold layerAt
  rw [hb]
  simp only [hA, hW]

/-- An index of the result array is in point `t`'s block iff each coordinate is in the block's range on its axis. -/
theorem mem_blk (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v4).slice (win0_3.rect t)).set ↔ _
  rw [View.set_slice_whole, Rect.mem_set_unit]
  exact Iff.rfl

/-- Every row of the result lies in the block of the point `row / 400`. -/
theorem cover (i : S10000x128.Idx) :
    ∃ t : Fin cfg0.N, (cfg0.win 3).flush t = true ∧ i ∈ ((cfg0.win 3).blk t).view.set := by
  have hi0 : (i 0).val < 10000 := idx2_lt0 i
  have hi1 : (i 1).val < 128 := idx2_lt1 i
  have hN : cfg0.N = 25 := N_0
  have ht : (i 0).val / 400 < cfg0.N := by rw [hN]; omega
  refine ⟨⟨(i 0).val / 400, ht⟩, flush0_3 _, ?_⟩
  rw [mem_blk]
  obtain ⟨e0, e1, e2, e3, e4, e5, e6, e7⟩ := idx_facts ⟨(i 0).val / 400, ht⟩
  intro a
  match a with
  | ⟨0, _⟩ =>
    show win0_3.index _ (0 : Fin 2) * 400 ≤ (i 0).val ∧ (i 0).val < win0_3.index _ (0 : Fin 2) * 400 + 400
    rw [e6]; show (i 0).val / 400 * 400 ≤ (i 0).val ∧ (i 0).val < (i 0).val / 400 * 400 + 400; omega
  | ⟨1, _⟩ =>
    show win0_3.index _ (1 : Fin 2) * 128 ≤ (i 1).val ∧ (i 1).val < win0_3.index _ (1 : Fin 2) * 128 + 128
    rw [e7]; omega

/-- THE RESULT ARRAY after the region: the layer of the arrays as the region finds them. -/
theorem final (c : Dev nD) :
    (dats m 0 c).arrAt 3 cfg0.N = layer (V m c main_arg3) (V m c main_arg4) (V m c main_v3) :=
  (dats m 0 c).arrAt_eq_of_cover 3 _ (fun t _ => flushed_eq m c t) cover

end Cert.KernelIdeal.Layer

end
-- ==== Proof.KernelTail.lean ====
/-
  The host operations after the region, read back. They turn the three index arrays into start indices (a negative
  number counts from the end of its axis), gather rows of the region's result, of the start-time table and of the
  end table at them, scale the two table gathers by sixteen and join the three along the last axis; the second
  result gathers the start-time table at the indices shifted by one place. The region's result being the scaled dense
  layer of the adjacency matrix, the weights and the bias row, both results are closed functions of the arguments.
-/
import proofs.«136222_j66271345377352_2_alg».proof.Proof.KernelLayer
import Idealize.ShloMosaic.Lib.StableHlo.Run

set_option maxRecDepth 16384

noncomputable section

namespace Cert.KernelIdeal.Tail

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.KernelIdeal.Hand Cert.KernelIdeal.Layer

/-! ## The tail's functions -/

/-- Start indices from an index array: an entry below zero has the axis extent `n` added; a trailing unit axis. -/
def normIdx (n : BitVec 32) (x : IVec S64x128 32) : IVec S64x128x1 32 :=
  broadcastInDim S64x128x1 ![0, 1] bcast_S64x128_S64x128x1_0_1
    (select (cmpi .slt x (broadcastInDim S64x128 ![] bcast_S_S64x128 (constantI S_ 32 0#32)))
      (addi x (broadcastInDim S64x128 ![] bcast_S_S64x128 (constantI S_ 32 n))) x)

/-- The index array shifted one place to the left along its rows, a zero column appended. -/
def shifted (x1 : IVec S64x128 32) : IVec S64x128 32 :=
  concatenate S64x128 1 [⟨S64x127, extractStridedSlice S64x127 ![0, 1] x1 slices_S64x128_S64x127_0_1⟩,
    ⟨S64x1, broadcastInDim S64x1 ![] bcast_S_S64x1 (constantI S_ 32 0#32)⟩] concatenates_S64x127_S64x1_S64x128_d1

/-- The scale sixteen, splat over a gathered table block. -/
def scale16 : FVec Ideal S64x128x64 .f32 :=
  broadcastInDim S64x128x64 ![] bcast_S_S64x128x64 (constant (F := Ideal) S_ .f32 0x41800000#32)

/-- The bias vector as a row. -/
def biasRow (x5 : FVec Ideal S128 .f32) : FVec Ideal S1x128 .f32 := shapeCast S1x128 x5 shapeCasts_S128_S1x128

/-- The first result from the region's result array `awb` and the arguments. -/
def joined (awb : FVec Ideal S10000x128 .f32) (x0 x1 x2 : IVec S64x128 32) (x6 : FVec Ideal S168x64 .f32)
    (x7 : FVec Ideal S10000x64 .f32) : FVec Ideal S64x128x256 .f32 :=
  concatenate S64x128x256 2
    [⟨S64x128x128, Host.gather gather_S10000x128_S64x128x1_S64x128x128_2_0_n_n_0_2_1128 awb (normIdx 10000#32 x0)⟩,
     ⟨S64x128x64, mulf (Host.gather gather_S168x64_S64x128x1_S64x128x64_2_0_n_n_0_2_164 x6 (normIdx 168#32 x1)) scale16⟩,
     ⟨S64x128x64, mulf (Host.gather gather_S10000x64_S64x128x1_S64x128x64_2_0_n_n_0_2_164 x7 (normIdx 10000#32 x2)) scale16⟩]
    concatenates_S64x128x128_S64x128x64_S64x128x64_S64x128x256_d2

/-- The second result: the start-time table gathered at the shifted indices. -/
def nextStart (x1 : IVec S64x128 32) (x6 : FVec Ideal S168x64 .f32) : FVec Ideal S64x128x64 .f32 :=
  Host.gather gather_S168x64_S64x128x1_S64x128x64_2_0_n_n_0_2_164 x6 (normIdx 168#32 (shifted x1))

variable (m : (ℓ : Loc nD τ sig) → Buf (Elt Ideal) ℓ)

/-! ## What the region finds -/

/-- The bias window's array is the bias vector as a row. -/
theorem V_main_v3 (c : Dev nD) : V m c main_v3 = biasRow (m ((c : Thread nD τ).loc main_arg5)) := by
  show StableHlo.after hostOps0 (fun b => m (c, b)) (Proc.devRef .tc main_v3) = _
  after_results
  rfl

/-- The shifted start-time indices are computed before the region. -/
theorem V_main_v2 (c : Dev nD) : V m c main_v2 = shifted (m ((c : Thread nD τ).loc main_arg1)) := by
  show StableHlo.after hostOps0 (fun b => m (c, b)) (Proc.devRef .tc main_v2) = _
  after_results
  rfl

/-! ## The two results after the tail -/

/-- The tail's first result from any contents `W` of the buffers it reads: the join of the three gathers. -/
theorem after_v37 (W : Valuation τ sig (Elt Ideal)) :
    StableHlo.after hostOps1 W (Proc.devRef .tc main_v37)
      = joined (W (Proc.devRef .tc main_v4)) (W (Proc.devRef .tc main_arg0)) (W (Proc.devRef .tc main_arg1))
          (W (Proc.devRef .tc main_arg2)) (W (Proc.devRef .tc main_arg6)) (W (Proc.devRef .tc main_arg7)) := by
  after_results_simp <;> rfl

/-- The tail's second result from any contents `W` of the buffers it reads. -/
theorem after_v27 (W : Valuation τ sig (Elt Ideal)) :
    StableHlo.after hostOps1 W (Proc.devRef .tc main_v27)
      = Host.gather gather_S168x64_S64x128x1_S64x128x64_2_0_n_n_0_2_164 (W (Proc.devRef .tc main_arg6))
          (normIdx 168#32 (W (Proc.devRef .tc main_v2))) := by
  after_results_simp <;> rfl

/-- Six equal operands give equal joins. -/
theorem joined_congr {a a' : FVec Ideal S10000x128 .f32} {x0 x0' x1 x1' x2 x2' : IVec S64x128 32}
    {x6 x6' : FVec Ideal S168x64 .f32} {x7 x7' : FVec Ideal S10000x64 .f32}
    (ha : a = a') (h0 : x0 = x0') (h1 : x1 = x1') (h2 : x2 = x2') (h6 : x6 = x6') (h7 : x7 = x7') :
    joined a x0 x1 x2 x6 x7 = joined a' x0' x1' x2' x6' x7' := by
  subst ha h0 h1 h2 h6 h7; rfl

/-- A buffer that is none of the pipeline's four arrays is read through the arrays' overlay unchanged, and no host
    operation before the region writes an argument. -/
theorem over_arg (c : Dev nD) (A : (w : Fin cfg0.W) → Buf (Elt Ideal) ((spec0 w).arr.view.loc (c.tc : Thread nD τ)))
    (b : Ref sig .tc) (hb : ∀ w, Pipeline.arrRef spec0 w ≠ b) (hV : V m c b = m ((c : Thread nD τ).loc b)) :
    Pipeline.withArrays spec0 c (V0 m c) A (Proc.devRef .tc b) = m ((c : Thread nD τ).loc b) :=
  (Pipeline.withArrays_of_ne spec0 c (V0 m c) A b hb).trans hV

/-- THE FIRST RESULT after the run: the three gathers joined, the first of them of the scaled dense layer. -/
theorem tail_v37 (c : Dev nD) :
    Pipeline.afterTail₀ cfgs (dats m) 0 (V0 m) [hostOps1] c main_v37
      = joined (layer (m ((c : Thread nD τ).loc main_arg3)) (m ((c : Thread nD τ).loc main_arg4))
            (biasRow (m ((c : Thread nD τ).loc main_arg5))))
          (m ((c : Thread nD τ).loc main_arg0)) (m ((c : Thread nD τ).loc main_arg1))
          (m ((c : Thread nD τ).loc main_arg2)) (m ((c : Thread nD τ).loc main_arg6)) (m ((c : Thread nD τ).loc main_arg7)) := by
  unfold Pipeline.afterTail₀
  show StableHlo.after hostOps1 _ (Proc.devRef .tc main_v37) = _
  refine (after_v37 _).trans (joined_congr ?_ ?_ ?_ ?_ ?_ ?_)
  · refine (Pipeline.withArrays_arr spec0 launch0.win.arr_inj c _ _ 3).trans ((final m c).trans ?_)
    rw [V_main_arg3, V_main_arg4, V_main_v3]
  · exact over_arg m c _ main_arg0 (by decide) (V_main_arg0 m c)
  · exact over_arg m c _ main_arg1 (by decide) (V_main_arg1 m c)
  · exact over_arg m c _ main_arg2 (by decide) (V_main_arg2 m c)
  · exact over_arg m c _ main_arg6 (by decide) (V_main_arg6 m c)
  · exact over_arg m c _ main_arg7 (by decide) (V_main_arg7 m c)

/-- THE SECOND RESULT after the run: the start-time table gathered at the shifted indices. -/
theorem tail_v27 (c : Dev nD) :
    Pipeline.afterTail₀ cfgs (dats m) 0 (V0 m) [hostOps1] c main_v27
      = nextStart (m ((c : Thread nD τ).loc main_arg1)) (m ((c : Thread nD τ).loc main_arg6)) := by
  unfold Pipeline.afterTail₀
  show StableHlo.after hostOps1 _ (Proc.devRef .tc main_v27) = _
  refine (after_v27 _).trans ?_
  unfold nextStart
  have h6 := over_arg m c (fun w => (dats m 0 c).arrAt w cfg0.N) main_arg6 (by decide) (V_main_arg6 m c)
  have h2 : Pipeline.withArrays spec0 c (V0 m c) (fun w => (dats m 0 c).arrAt w cfg0.N) (Proc.devRef .tc main_v2)
      = shifted (m ((c : Thread nD τ).loc main_arg1)) :=
    (Pipeline.withArrays_of_ne spec0 c (V0 m c) _ main_v2 (by decide)).trans (V_main_v2 m c)
  exact congr (congrArg _ h6) (congrArg _ h2)

/-! ## The run, read -/

variable (ρ : Dev nD → PrngReg)

/-- Every weakly fair execution of the kernel program terminates with its two results at the closed functions above
    and its arguments unchanged. -/
theorem run : θ_run defs (onTc (τ := τ) (main (F := Ideal))) ⟨m, fun _ => 0, ρ⟩ (fun r => ∀ c : Dev nD,
      r.2.mem ((c.tc : Thread nD τ).loc main_v37)
        = joined (layer (m ((c : Thread nD τ).loc main_arg3)) (m ((c : Thread nD τ).loc main_arg4))
              (biasRow (m ((c : Thread nD τ).loc main_arg5))))
            (m ((c : Thread nD τ).loc main_arg0)) (m ((c : Thread nD τ).loc main_arg1))
            (m ((c : Thread nD τ).loc main_arg2)) (m ((c : Thread nD τ).loc main_arg6)) (m ((c : Thread nD τ).loc main_arg7))
      ∧ r.2.mem ((c.tc : Thread nD τ).loc main_v27)
        = nextStart (m ((c : Thread nD τ).loc main_arg1)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
      ((h c).2 main_v37 (Pipeline.mem_restRefs_of main_v37 (by decide) (by decide))).trans (tail_v37 m c),
      ((h c).2 main_v27 (Pipeline.mem_restRefs_of main_v27 (by decide) (by decide))).trans (tail_v27 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.Tail

end
-- ==== Proof.LibGatherRows.lean ====
/-
  A row gather read at an index. `x[idx]` of a matrix `x : [N, D]` at an array of row numbers lowers to a
  `stablehlo.gather` whose start indices carry a trailing unit axis (`idx : [R, C, 1]`), whose one collapsed and one
  start-index-mapped operand axis is the row axis, and whose slices are whole rows (`[1, D]`); the result is
  `[R, C, D]`. Entry `(r, c, e)` of the result is the operand at row `idx[r, c, 0]` — read signed and clamped into
  `[0, N − 1]` — and column `e`. General in the extents, the index width and the element type.
-/
import Idealize.ShloMosaic.Lib.ValueIdx

noncomputable section

namespace Idealize.ShloMosaic.GatherRows

open Idealize.ShloMosaic Idealize.ShloMosaic.ValueIdx

variable {α : Type}

/-- The dimension numbers of a whole-row gather of an `[N, D]` matrix at `[R, C, 1]` row numbers. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[r, c, 0]` of result index `(r, c, e)`. -/
abbrev rowIdx {R C D : Nat} (y : (⟨3, ![R, C, D]⟩ : Shape).Idx) : (⟨3, ![R, C, 1]⟩ : Shape).Idx :=
  ix3 (y 0) (y 1) ⟨0, Nat.one_pos⟩

/-- The row read at position `(r, c)`: the start index `idx[r, c, 0]`, signed, clamped into the matrix. -/
abbrev rowAt {N R C w : Nat} (hN : 0 < N) (idx : IVec ⟨3, ![R, C, 1]⟩ w) (r : Fin R) (c : Fin C) : Fin N :=
  ⟨min (idx (ix3 r c (⟨0, Nat.one_pos⟩ : Fin 1))).toInt.toNat (N - 1), by omega⟩

/-- THE ROW GATHER READ AT `(r, c, e)`: the operand at the clamped row `idx[r, c, 0]` and column `e`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowsDims N D R C wf) x idx y = x (ix2 (rowAt hN idx (y 0) (y 1)) (y 2)) := by
  unfold Host.gather
  congr 1
  funext a
  refine Fin.ext ?_
  match a with
  | ⟨0, _⟩ =>
    show (rowsDims N D R C wf).start y idx 0 + (rowsDims N D R C wf).batchCoord y 0 + (rowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx y ⟨List.idxOf (0 : Fin 2) (rowsDims N D R C wf).startIndexMap,
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  | ⟨1, _⟩ =>
    show (rowsDims N D R C wf).start y idx 1 + (rowsDims N D R C wf).batchCoord y 1 + (rowsDims N D R C wf).offCoord y 1 = (y 2).val
    rw [GatherDims.batchCoord_eq_zero _ _ _ List.not_mem_nil]
    have hst : (rowsDims N D R C wf).start y idx 1 = 0 := by
      unfold GatherDims.start
      rw [dif_neg (show (1 : Fin 2) ∉ ([0] : List (Fin 2)) from by decide)]
    rw [hst]
    simp only [Nat.add_zero, Nat.zero_add]
    unfold GatherDims.offCoord
    rw [dif_pos ((GatherDims.mem_sKept _ _).mpr ⟨(show (1 : Fin 2) ∉ ([0] : List (Fin 2)) from by decide), List.not_mem_nil⟩)]
    rfl

end Idealize.ShloMosaic.GatherRows

end
-- ==== Proof.RefSide.lean ====
/-
  The reference's dense layer read at an entry. The reference gathers whole rows of the adjacency matrix `A` at the
  location indices — an index below zero counted from the end, then clamped into the matrix —, contracts them against
  the weights, adds the bias and clamps below at zero: entry `(a, b, d)` of that stage is
  `max (Σ_k A(row(a, b), k) · W(k, d) + bias(d)) 0`, where `row(a, b)` is the clamped start index at `(a, b)`.
-/
import proofs.«136222_j66271345377352_2_alg».proof.Proof.Gen.ReferenceIdeal.Run
import proofs.«136222_j66271345377352_2_alg».proof.Proof.Gen.ReferenceIdeal.Read
import proofs.«136222_j66271345377352_2_alg».proof.Proof.LibGatherRows
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.GatherRows
open Cert.ReferenceIdeal Cert.ReferenceIdeal.Gen Cert.ReferenceIdeal.Read
open scoped BigOperators

/-- The gathered adjacency rows at `(a, b, k)`: column `k` of the row the start index at `(a, b)` names. -/
theorem v9_apply (x0 : IVec S64x128 32) (x3 : FVec Ideal S10000x10000 .f32) (a : Fin 64) (b : Fin 128) (k : Fin 10000) :
    val_main_v9 (F := Ideal) x0 x3 (ix3 a b k)
      = x3 (ix2 (rowAt (N := 10000) (by decide) (val_main_v8 (F := Ideal) x0) a b) k) :=
  gather_rows_apply (N := 10000) (D := 10000) (R := 64) (C := 128) (by decide)
    gather_S10000x10000_S64x128x1_S64x128x10000_2_0_n_n_0_2_110000_wf x3 (val_main_v8 (F := Ideal) x0) (ix3 a b k)

/-- The reference's clamped dense layer at `(a, b, d)`. -/
theorem v14_apply (x0 : IVec S64x128 32) (x3 : FVec Ideal S10000x10000 .f32) (x4 : FVec Ideal S10000x128 .f32)
    (x5 : FVec Ideal S128 .f32) (a : Fin 64) (b : Fin 128) (d : Fin 128) :
    val_main_v14 (F := Ideal) x0 x3 x4 x5 (ix3 a b d)
      = max ((∑ k : Fin 10000, x3 (ix2 (rowAt (N := 10000) (by decide) (val_main_v8 (F := Ideal) x0) a b) k) * x4 (ix2 k d))
          + x5 (ix1 d)) (Ideal.ofBits .f32 0x00000000#32) := by
  rw [val_main_v14_apply, val_main_v13_apply, val_main_v10_apply, val_main_v12_apply, val_main_v11_apply,
    val_main_call0_v0_apply, val_main_call0_cst_apply]
  simp only [Ideal.maximumf_def, Ideal.addf_def, Ideal.ofBits_def]
  have hs : ∀ k : Fin 10000, val_main_v9 (F := Ideal) x0 x3 (lidx_main_v10 (ix3 a b d) k) * x4 (ridx_main_v10 (ix3 a b d) k)
      = x3 (ix2 (rowAt (N := 10000) (by decide) (val_main_v8 (F := Ideal) x0) a b) k) * x4 (ix2 k d) := fun k => by
    have e1 : lidx_main_v10 (ix3 a b d) k = ix3 a b k := by
      funext t; match t with | ⟨0, _⟩ => rfl | ⟨1, _⟩ => rfl | ⟨2, _⟩ => rfl
    have e2 : ridx_main_v10 (ix3 a b d) k = ix2 k d := by
      funext t; match t with | ⟨0, _⟩ => rfl | ⟨1, _⟩ => rfl
    rw [e1, e2, v9_apply]
  have hb : x5 (idx_main_v11 (idx_main_v12 (ix3 a b d))) = x5 (ix1 d) :=
    congrArg x5 (by funext t; match t with | ⟨0, _⟩ => rfl)
  rw [Finset.sum_congr rfl (fun k _ => hs k), hb]

end Cert.ReferenceIdeal.RefValue

end
-- ==== Proof.LibConcatLast3.lean ====
/-
  Three rank-3 arrays of one leading box `[A, B]` joined along the last axis (a 3-piece `concatenate` on axis 2:
  `[A, B, n₁] ++ [A, B, n₂] ++ [A, B, n₃] = [A, B, n]`) read at an index `(a, b, e)`: the piece whose span of the
  last axis holds `e`, at `(a, b, e − the extents before it)`. General in the extents and the element type.
-/
import Idealize.ShloMosaic.Lib.Pipeline.Value
import Idealize.ShloMosaic.Lib.ValueIdx

noncomputable section

namespace Idealize.ShloMosaic.ConcatLast3

open Idealize.ShloMosaic Idealize.ShloMosaic.ValueIdx

variable {α : Type} {A B n₁ n₂ n₃ n : Nat}

/-- Below the first extent the joined array is the first piece. -/
theorem join3_fst (x₁ : (⟨3, ![A, B, n₁]⟩ : Shape).Idx → α) (x₂ : (⟨3, ![A, B, n₂]⟩ : Shape).Idx → α)
    (x₃ : (⟨3, ![A, B, n₃]⟩ : Shape).Idx → α)
    (h : Shape.Concatenates [(⟨3, ![A, B, n₁]⟩ : Shape), ⟨3, ![A, B, n₂]⟩, ⟨3, ![A, B, n₃]⟩] ⟨3, ![A, B, n]⟩ 2)
    (a : Fin A) (b : Fin B) (e : Fin n) (he : e.val < n₁) :
    concatenate (⟨3, ![A, B, n]⟩ : Shape) 2 [⟨_, x₁⟩, ⟨_, x₂⟩, ⟨_, x₃⟩] h (ix3 a b e) = x₁ (ix3 a b ⟨e.val, he⟩) :=
  concatenate_apply_piece (t := ⟨3, ![A, B, n]⟩) (2 : Fin 3) [⟨⟨3, ![A, B, n₁]⟩, x₁⟩, ⟨⟨3, ![A, B, n₂]⟩, x₂⟩, ⟨⟨3, ![A, B, n₃]⟩, x₃⟩] h (ix3 a b e) 0 (Nat.zero_lt_succ _) _ x₁ rfl rfl 0 rfl (ix3 a b ⟨e.val, he⟩)
    (fun d hd => by
      match d with
      | ⟨0, _⟩ => rfl
      | ⟨1, _⟩ => rfl
      | ⟨2, _⟩ => exact absurd rfl hd)
    (by show 0 + e.val = e.val; omega)

/-- From the first extent up to the first two it is the second piece, counted from the first extent. -/
theorem join3_snd (x₁ : (⟨3, ![A, B, n₁]⟩ : Shape).Idx → α) (x₂ : (⟨3, ![A, B, n₂]⟩ : Shape).Idx → α)
    (x₃ : (⟨3, ![A, B, n₃]⟩ : Shape).Idx → α)
    (h : Shape.Concatenates [(⟨3, ![A, B, n₁]⟩ : Shape), ⟨3, ![A, B, n₂]⟩, ⟨3, ![A, B, n₃]⟩] ⟨3, ![A, B, n]⟩ 2)
    (a : Fin A) (b : Fin B) (e : Fin n) (e' : Fin n₂) (he : n₁ + e'.val = e.val) :
    concatenate (⟨3, ![A, B, n]⟩ : Shape) 2 [⟨_, x₁⟩, ⟨_, x₂⟩, ⟨_, x₃⟩] h (ix3 a b e) = x₂ (ix3 a b e') :=
  concatenate_apply_piece (t := ⟨3, ![A, B, n]⟩) (2 : Fin 3) [⟨⟨3, ![A, B, n₁]⟩, x₁⟩, ⟨⟨3, ![A, B, n₂]⟩, x₂⟩, ⟨⟨3, ![A, B, n₃]⟩, x₃⟩] h (ix3 a b e) 1 (Nat.succ_lt_succ (Nat.zero_lt_succ _)) _ x₂ rfl rfl n₁ (by simp) (ix3 a b e')
    (fun d hd => by
      match d with
      | ⟨0, _⟩ => rfl
      | ⟨1, _⟩ => rfl
      | ⟨2, _⟩ => exact absurd rfl hd)
    he

/-- Past the first two extents it is the third piece, counted from their sum. -/
theorem join3_thd (x₁ : (⟨3, ![A, B, n₁]⟩ : Shape).Idx → α) (x₂ : (⟨3, ![A, B, n₂]⟩ : Shape).Idx → α)
    (x₃ : (⟨3, ![A, B, n₃]⟩ : Shape).Idx → α)
    (h : Shape.Concatenates [(⟨3, ![A, B, n₁]⟩ : Shape), ⟨3, ![A, B, n₂]⟩, ⟨3, ![A, B, n₃]⟩] ⟨3, ![A, B, n]⟩ 2)
    (a : Fin A) (b : Fin B) (e : Fin n) (e' : Fin n₃) (he : n₁ + n₂ + e'.val = e.val) :
    concatenate (⟨3, ![A, B, n]⟩ : Shape) 2 [⟨_, x₁⟩, ⟨_, x₂⟩, ⟨_, x₃⟩] h (ix3 a b e) = x₃ (ix3 a b e') :=
  concatenate_apply_piece (t := ⟨3, ![A, B, n]⟩) (2 : Fin 3) [⟨⟨3, ![A, B, n₁]⟩, x₁⟩, ⟨⟨3, ![A, B, n₂]⟩, x₂⟩, ⟨⟨3, ![A, B, n₃]⟩, x₃⟩] h (ix3 a b e) 2 (Nat.succ_lt_succ (Nat.succ_lt_succ (Nat.zero_lt_succ _))) _ x₃ rfl rfl (n₁ + n₂) (by simp) (ix3 a b e')
    (fun d hd => by
      match d with
      | ⟨0, _⟩ => rfl
      | ⟨1, _⟩ => rfl
      | ⟨2, _⟩ => exact absurd rfl hd)
    he

end Idealize.ShloMosaic.ConcatLast3

end
-- ==== Proof.Consts.lean ====
/-
  The float constants the two programs spell, as the extended reals their words denote: the kernel's scale `16.0`,
  the reference's `256.0`, and the one fact that joins them — the square root of 256 is 16 — so that the reference's
  `sqrt(256)` and the kernel's literal scale are one number.
-/
import Idealize.ShloMosaic.PureOps.Ideal

noncomputable section

namespace Cert.Consts

open Idealize.ShloMosaic

/-- `16.0` denotes the real 16. -/
theorem ofBits_16 : Ideal.ofBits .f32 0x41800000#32 = ((16 : ℝ) : EReal) := by
  simp [Ideal.ofBits, Ideal.ieee, -EReal.coe_mul]; norm_num

/-- `256.0` denotes the real 256. -/
theorem ofBits_256 : Ideal.ofBits .f32 0x43800000#32 = ((256 : ℝ) : EReal) := by
  simp [Ideal.ofBits, Ideal.ieee, -EReal.coe_mul]; norm_num

/-- The square root of the word `256.0` is the word `16.0`. -/
theorem sqrt_256 : Ideal.sqrt (Ideal.ofBits .f32 0x43800000#32) = Ideal.ofBits .f32 0x41800000#32 := by
  rw [ofBits_256, ofBits_16, Ideal.sqrt_coe, if_neg (by norm_num)]
  have h : Real.sqrt 256 = 16 := by
    rw [show (256 : ℝ) = 16 ^ 2 by norm_num]
    exact Real.sqrt_sq (by norm_num)
  rw [h]

end Cert.Consts

end
-- ==== Proof.Bridge.lean ====
/-
  The two programs compute one function. Entry `(a, b, e)` of the first result lies in one of three pieces of the last
  axis. Below 128 the kernel gathers row `row(a, b)` of the scaled dense layer of the whole adjacency matrix, the
  reference builds the dense layer of the gathered row and scales it: both are
  `max (Σ_k A(row(a, b), k) · W(k, e) + bias(e)) 0 · 16` — a gather of rows commutes with a product taken row by row,
  and `sqrt 256 = 16`. In the other two pieces each side gathers one table row and scales it by 16, the kernel before
  the join and the reference after it. The second result is the same gather on both sides. No law of the extended
  reals beyond the value of `sqrt 256` is used, so the finiteness of the inputs is never opened.
-/
import proofs.«136222_j66271345377352_2_alg».proof.Proof.KernelTail
import proofs.«136222_j66271345377352_2_alg».proof.Proof.RefSide
import proofs.«136222_j66271345377352_2_alg».proof.Proof.LibConcatLast3
import proofs.«136222_j66271345377352_2_alg».proof.Proof.Consts
import Idealize.ShloMosaic.Lib.ValueLayout

noncomputable section

namespace Cert.Bridge

open Idealize.ShloMosaic Idealize.ShloMosaic.ValueIdx Idealize.ShloMosaic.GatherRows Idealize.ShloMosaic.ConcatLast3
open Cert.KernelIdeal Cert.KernelIdeal.Gen Cert.KernelIdeal.Layer Cert.KernelIdeal.Tail
open scoped BigOperators

/-- The splat scale reads sixteen everywhere. -/
theorem scale16_apply (i : S64x128x64.Idx) : scale16 i = Ideal.ofBits .f32 0x41800000#32 := by
  unfold scale16
  exact broadcastInDim_apply _ bcast_S_S64x128x64 _ i ix0 (fun a => a.elim0)

/-- The bias row at `(0, d)` is the bias vector at `d`. -/
theorem biasRow_apply (x5 : FVec Ideal S128 .f32) (d : Fin 128) : biasRow x5 (ix2 (0 : Fin 1) d) = x5 (ix1 d) := by
  unfold biasRow
  exact shapeCast_a_1a_apply x5 shapeCasts_S128_S1x128 (0 : Fin 1) d

/-- THE FIRST RESULT: the reference's scaled join is the kernel's join of the gathered scaled layer and the two
    scaled table gathers, entry by entry. -/
theorem first_eq (x0 x1 x2 : IVec S64x128 32) (x3 : FVec Ideal S10000x10000 .f32) (x4 : FVec Ideal S10000x128 .f32)
    (x5 : FVec Ideal S128 .f32) (x6 : FVec Ideal S168x64 .f32) (x7 : FVec Ideal S10000x64 .f32) :
    Cert.ReferenceIdeal.Read.val_main_v39 (F := Ideal) x0 x1 x2 x3 x4 x5 x6 x7
      = joined (layer x3 x4 (biasRow x5)) x0 x1 x2 x6 x7 := by
  funext j
  obtain ⟨a, b, e, rfl⟩ : ∃ (a : Fin 64) (b : Fin 128) (e : Fin 256), j = ix3 a b e := ⟨j 0, j 1, j 2, eq_ix3 j⟩
  rw [Cert.ReferenceIdeal.Read.val_main_v39_apply, Cert.ReferenceIdeal.Read.val_main_v38_apply,
    Cert.ReferenceIdeal.Read.val_main_v37_apply, Cert.ReferenceIdeal.Read.val_main_cst_apply]
  simp only [Ideal.mulf_def, Ideal.hostUnary_sqrt_def, Ideal.ofBits_def, Cert.Consts.sqrt_256]
  have he : e.val < 256 := e.isLt
  by_cases h1 : e.val < 128
  · -- the dense-layer piece
    have hL : Cert.ReferenceIdeal.Read.val_main_v36 (F := Ideal) x0 x1 x2 x3 x4 x5 x6 x7 (ix3 a b e)
        = Cert.ReferenceIdeal.Read.val_main_v14 (F := Ideal) x0 x3 x4 x5 (ix3 a b ⟨e.val, h1⟩) :=
      join3_fst _ _ _ _ a b e h1
    have hK : joined (layer x3 x4 (biasRow x5)) x0 x1 x2 x6 x7 (ix3 a b e)
        = Host.gather gather_S10000x128_S64x128x1_S64x128x128_2_0_n_n_0_2_1128 (layer x3 x4 (biasRow x5))
            (normIdx 10000#32 x0) (ix3 a b ⟨e.val, h1⟩) :=
      join3_fst _ _ _ _ a b e h1
    have hG : Host.gather gather_S10000x128_S64x128x1_S64x128x128_2_0_n_n_0_2_1128 (layer x3 x4 (biasRow x5))
          (normIdx 10000#32 x0) (ix3 a b ⟨e.val, h1⟩)
        = layer x3 x4 (biasRow x5) (ix2 (rowAt (N := 10000) (by decide) (normIdx 10000#32 x0) a b) ⟨e.val, h1⟩) :=
      gather_rows_apply (N := 10000) (D := 128) (R := 64) (C := 128) (by decide)
        gather_S10000x128_S64x128x1_S64x128x128_2_0_n_n_0_2_1128_wf (layer x3 x4 (biasRow x5)) (normIdx 10000#32 x0)
        (ix3 a b ⟨e.val, h1⟩)
    rw [hL, hK, hG, Cert.ReferenceIdeal.RefValue.v14_apply, layer_ix2]
    unfold layerAt
    rw [biasRow_apply]
    rfl
  · by_cases h2 : e.val < 192
    · -- the start-time table piece
      have hL : Cert.ReferenceIdeal.Read.val_main_v36 (F := Ideal) x0 x1 x2 x3 x4 x5 x6 x7 (ix3 a b e)
          = Cert.ReferenceIdeal.Read.val_main_v21 (F := Ideal) x1 x6 (ix3 a b (⟨e.val - 128, by omega⟩ : Fin 64)) :=
        join3_snd _ _ _ _ a b e ⟨e.val - 128, by omega⟩ (by show 128 + (e.val - 128) = e.val; omega)
      have hK : joined (layer x3 x4 (biasRow x5)) x0 x1 x2 x6 x7 (ix3 a b e)
          = mulf (Host.gather gather_S168x64_S64x128x1_S64x128x64_2_0_n_n_0_2_164 x6 (normIdx 168#32 x1)) scale16
              (ix3 a b (⟨e.val - 128, by omega⟩ : Fin 64)) :=
        join3_snd _ _ _ _ a b e ⟨e.val - 128, by omega⟩ (by show 128 + (e.val - 128) = e.val; omega)
      rw [hL, hK, mulf_apply, scale16_apply]
      rfl
    · -- the end table piece
      have hL : Cert.ReferenceIdeal.Read.val_main_v36 (F := Ideal) x0 x1 x2 x3 x4 x5 x6 x7 (ix3 a b e)
          = Cert.ReferenceIdeal.Read.val_main_v35 (F := Ideal) x2 x7 (ix3 a b (⟨e.val - 192, by omega⟩ : Fin 64)) :=
        join3_thd _ _ _ _ a b e ⟨e.val - 192, by omega⟩ (by show 128 + 64 + (e.val - 192) = e.val; omega)
      have hK : joined (layer x3 x4 (biasRow x5)) x0 x1 x2 x6 x7 (ix3 a b e)
          = mulf (Host.gather gather_S10000x64_S64x128x1_S64x128x64_2_0_n_n_0_2_164 x7 (normIdx 10000#32 x2)) scale16
              (ix3 a b (⟨e.val - 192, by omega⟩ : Fin 64)) :=
        join3_thd _ _ _ _ a b e ⟨e.val - 192, by omega⟩ (by show 128 + 64 + (e.val - 192) = e.val; omega)
      rw [hL, hK, mulf_apply, scale16_apply]
      rfl

/-- THE SECOND RESULT: one gather of the start-time table at the shifted indices, on both sides. -/
theorem second_eq (x1 : IVec S64x128 32) (x6 : FVec Ideal S168x64 .f32) :
    Cert.ReferenceIdeal.Read.val_main_v28 (F := Ideal) x1 x6 = nextStart x1 x6 := rfl

end Cert.Bridge

end
-- ==== Proof.lean ====
/-
  The certificate of a location-embedding kernel against its jnp reference. The kernel multiplies the whole
  normalised adjacency matrix `A` by the location weights once — a Pallas region over 25 blocks of 400 rows, with
  the bias, the clamp at zero and the output scale fused into each block — and then gathers rows of that result at the
  location indices; the reference gathers rows of `A` first and multiplies the gathered rows by the weights. Both
  concatenate the location features with two gathered embedding tables and scale by `sqrt 256 = 16`, and both return
  the start-time embedding at the indices shifted by one place as a second result.

  • Frames: each kernel program is host operations, one region, host operations; its frame run comes from the
    library's frame theorem for a region with host lines on both sides (KernelFrame, KernelIdealFrame). The
    reference's frame is its run with the results dropped.
  • Preserves: the idealization rewrote nothing, so there is nothing to state.
  • Algebraic: the kernel's run is read back as closed functions of the arguments (KernelLayer: the region's result
    array is the scaled dense layer; KernelTail: the host lines after it), the reference's run likewise (RefSide),
    and the two functions are equal entry by entry (Bridge).
-/
import proofs.«136222_j66271345377352_2_alg».proof.Defs
import proofs.«136222_j66271345377352_2_alg».proof.Proof.Gen.Kernel
import proofs.«136222_j66271345377352_2_alg».proof.Proof.Gen.KernelIdeal
import proofs.«136222_j66271345377352_2_alg».proof.Proof.Gen.ReferenceIdeal
import proofs.«136222_j66271345377352_2_alg».proof.Proof.Gen.Pre_finite_inputs
import proofs.«136222_j66271345377352_2_alg».proof.Proof.KernelFrame
import proofs.«136222_j66271345377352_2_alg».proof.Proof.KernelIdealFrame
import proofs.«136222_j66271345377352_2_alg».proof.Proof.KernelTail
import proofs.«136222_j66271345377352_2_alg».proof.Proof.RefSide
import proofs.«136222_j66271345377352_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to its end with its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization applied no rewrite. -/
theorem preserves : Cert.preserves_Kernel_KernelIdeal := trivial

/-- At the extended reals both programs, run from memories agreeing on the arguments, end with the same two results:
    the kernel's run read back (KernelTail) and the reference's run read back are one function of the arguments
    (Bridge). -/
theorem algebraic : Cert.algebraic_KernelIdeal_ReferenceIdeal := by
  intro m ρ m' ρ' _ hagree
  refine ⟨_, _, Cert.KernelIdeal.Tail.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v39_eq, (hagree c).1, (hagree c).2.1, (hagree c).2.2.1, (hagree c).2.2.2.1, (hagree c).2.2.2.2.1, (hagree c).2.2.2.2.2.1, (hagree c).2.2.2.2.2.2.1, (hagree c).2.2.2.2.2.2.2]
    exact Cert.Bridge.first_eq _ _ _ _ _ _ _ _
  · rw [Cert.ReferenceIdeal.Read.val_main_v28_eq, (hagree c).2.1, (hagree c).2.2.2.2.2.2.1]
    exact Cert.Bridge.second_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
